-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S800000x4 : Shape := ⟨2, ![800000, 4]⟩
abbrev S132x128 : Shape := ⟨2, ![132, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S132x128 : S_.BroadcastsInDim S132x128 (![] : Fin 0 → Fin S132x128.rank)
  reducesTo_S132x128_S_d0_1 : S132x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x800000 32) (main_arg2 : FVec F S800000x4 .f32) (main_arg3 : FVec F S132x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S132x128 .f32 := Host.absf main_arg3
  let main_cst_2 : FVec F S_ .f32 := constant S_ .f32 0x7F800000#32
  let main_v10 : FVec F S132x128 .f32 := broadcastInDim S132x128 ![] bcast_S_S132x128 main_cst_2
  let main_v11 : IVec S132x128 1 := cmpf .olt main_v9 main_v10
  let main_c_3 : IVec S_ 1 := constantI S_ 1 1#1
  let main_v12 : IVec S_ 1 := (fun x v => Host.reduce IntOp.andi x v reducesTo_S132x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S800000x4 : Shape := ⟨2, ![800000, 4]⟩
abbrev S132x128 : Shape := ⟨2, ![132, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S2000x64 : Shape := ⟨2, ![2000, 64]⟩
abbrev S2000x4 : Shape := ⟨2, ![2000, 4]⟩
abbrev S2000x132 : Shape := ⟨2, ![2000, 132]⟩
abbrev S2000x128 : Shape := ⟨2, ![2000, 128]⟩
abbrev S1x128 : Shape := ⟨2, ![1, 128]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 46
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000x4, .f32⟩
  | .hbm, ⟨3, _⟩ => ⟨S132x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S100000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S100000x64, .f32⟩
  | .hbm, ⟨45, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x4, .f32⟩
  | .local _ .vmem, ⟨5, _⟩ => ⟨S2000x4, .f32⟩
  | .local _ .vmem, ⟨6, _⟩ => ⟨S132x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S2000x64, .f32⟩
  | .local _ .vmem, ⟨11, _⟩ => ⟨S2000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x128, .f32⟩
  | .local _ .vmem, ⟨17, _⟩ => ⟨S128, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S132x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S2000x4_S2000x4_0_0 : ∀ a, (![0, 0] : Fin 2 → Nat) a + S2000x4.size a ≤ S2000x4.size a
  h_S2000x4 : 0 < S2000x4.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x4_S2000x132_d1 : Shape.Concatenates [S2000x64, S2000x64, S2000x4] S2000x132 1
  bitsLt_bf16_f32 : FTy.bits .bf16 < FTy.bits .f32
  inb_S132x128_S132x128_0_0 : ∀ a, (![0, 0] : Fin 2 → Nat) a + S132x128.size a ≤ S132x128.size a
  h_S132x128 : 0 < S132x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  broadcasts_S1x128_S5000x128 : S1x128.Broadcasts S5000x128
  broadcasts_S1x64_S5000x64 : S1x64.Broadcasts S5000x64
  gather_S100000x64_S800000x1_S800000x64_1_0_n_n_0_1_164_wf : GatherDims.WF S100000x64 S800000x1 S800000x64 [1] [0] [] [0] [] 1 ![1, 64]
  dot_S2000x132_S132x128_S2000x128_1_0_0_1_n_n_wf : DotDims.WF S2000x132 S132x128 S2000x128 [1] [0] [0] [1] [] []
  dot_S2000x128_S128x64_S2000x64_1_0_0_1_n_n_wf : DotDims.WF S2000x128 S128x64 S2000x64 [1] [0] [0] [1] [] []
  scatter_S100000x64_S800000x1_S800000x64_1_0_0_1_wf : ScatterDims.WF S100000x64 S800000x1 S800000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S800000x4.size a
  hwx0_2 : ∀ i : grid0.Coords, EltTy.bits .f32 = 32 ∨ (Rect.block (s := S800000x4) S2000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S132x128.size a ≤ S132x128.size a
  hwx0_3 : ∀ i : grid0.Coords, EltTy.bits .f32 = 32 ∨ (Rect.block (s := S132x128) S132x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S800000x64.size a
  hwx0_7 : ∀ i : grid0.Coords, EltTy.bits .f32 = 32 ∨ (Rect.block (s := S800000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S2000x132_S132x128_S2000x128_1_0_0_1_n_n : DotDims S2000x132 S132x128 S2000x128 where
  lhsContracting := [1]
  rhsContracting := [0]
  lhsNonContracting := [0]
  rhsNonContracting := [1]
  lhsBatch := []
  rhsBatch := []
  wf := dot_S2000x132_S132x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S132x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S800000x4 : Shape := ⟨2, ![800000, 4]⟩
abbrev S132x128 : Shape := ⟨2, ![132, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x132 : Shape := ⟨2, ![800000, 132]⟩
abbrev S800000x128 : Shape := ⟨2, ![800000, 128]⟩
abbrev S1x128 : Shape := ⟨2, ![1, 128]⟩
abbrev S1x64 : Shape := ⟨2, ![1, 64]⟩
abbrev S100000x128 : Shape := ⟨2, ![100000, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000x4, .f32⟩
  | .hbm, ⟨3, _⟩ => ⟨S132x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x4, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x132, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S100000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S100000x64, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_c_3 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_cst : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x4_S800000x132_d1 : Shape.Concatenates [S800000x64, S800000x64, S800000x4] S800000x132 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  dot_S800000x132_S132x128_S800000x128_1_0_0_1_n_n_wf : DotDims.WF S800000x132 S132x128 S800000x128 [1] [0] [0] [1] [] []
  dot_S800000x128_S128x64_S800000x64_1_0_0_1_n_n_wf : DotDims.WF S800000x128 S128x64 S800000x64 [1] [0] [0] [1] [] []
  scatter_S100000x64_S800000x1_S800000x64_1_0_0_1_wf : ScatterDims.WF S100000x64 S800000x1 S800000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x132_S132x128_S800000x128_1_0_0_1_n_n : DotDims S800000x132 S132x128 S800000x128 where
  lhsContracting := [1]
  rhsContracting := [0]
  lhsNonContracting := [0]
  rhsNonContracting := [1]
  lhsBatch := []
  rhsBatch := []
  wf := dot_S800000x132_S132x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is four stretches in order: host operations (the two row gathers), the message kernel over 400 blocks of
  2000 edges, host operations (the scatter-add into the nodes), the update kernel over 20 blocks of 5000 nodes. The
  buffer contents at each boundary are a fold through those stretches; after the last one the result buffer holds what
  the update kernel's write-backs leave, and no argument buffer has been written.
-/
import proofs.«166490_j44160853737921_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with its result NAMED: every weakly fair execution ends with the result array at the
    last boundary's contents of its buffer and the argument arrays as launched. -/
theorem run_out : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Gen

end
-- ==== Proof.Agg.lean ====
/-
  The aggregation step by itself: starting from zeros, every message row is added into the row of its target node
  (a negative target index is first wrapped by the number of nodes, as array indexing does). Both programs perform
  it with the same host operation on the same indices; only the messages they feed it are computed differently.
-/
import proofs.«166490_j44160853737921_2_alg».proof.Proof.Gen.ReferenceIdeal.Read

noncomputable section

namespace Cert.ReferenceIdeal.RefValue

open Idealize.ShloMosaic Cert.ReferenceIdeal Cert.ReferenceIdeal.Read

variable {F : FTy → Type} [FloatOps F]

/-- The aggregated messages, as a function of the edge list and the messages. -/
def agg (x1 : (⟨S2x800000, .i32⟩ : BufTy).Contents (Elt F)) (msgs : (⟨S800000x64, .f32⟩ : BufTy).Contents (Elt F)) :
    (⟨S100000x64, .f32⟩ : BufTy).Contents (Elt F) :=
  Host.scatterAdd (F := F) (φ := .f32) scatter_S100000x64_S800000x1_S800000x64_1_0_0_1 (val_main_v29 (F := F)) (val_main_v35 (F := F) x1) msgs

/-- The reference's aggregated array is `agg` of its messages. -/
theorem agg_ref (x0 : (⟨S100000x64, .f32⟩ : BufTy).Contents (Elt F)) (x1 : (⟨S2x800000, .i32⟩ : BufTy).Contents (Elt F))
    (x2 : (⟨S800000x4, .f32⟩ : BufTy).Contents (Elt F)) (x3 : (⟨S132x128, .f32⟩ : BufTy).Contents (Elt F))
    (x4 : (⟨S128, .f32⟩ : BufTy).Contents (Elt F)) (x5 : (⟨S128x64, .f32⟩ : BufTy).Contents (Elt F))
    (x6 : (⟨S64, .f32⟩ : BufTy).Contents (Elt F)) :
    val_main_v36 (F := F) x0 x1 x2 x3 x4 x5 x6 = agg x1 (val_main_v28 (F := F) x0 x1 x2 x3 x4 x5 x6) := rfl

end Cert.ReferenceIdeal.RefValue

end
-- ==== Proof.KernelHost.lean ====
/-
  The host stretches of the idealized kernel, read back.

  Before the message kernel the program gathers, for every edge, the feature rows of its source and of its target node;
  between the two kernels it adds every message row into its target node's row. These are the reference's own host
  operations on the same operands, so each array the kernels are handed is named by the reference's function for it.
  No host operation writes an argument array.
-/
import proofs.«166490_j44160853737921_2_alg».proof.Proof.Gen.KernelIdeal.Frame
import proofs.«166490_j44160853737921_2_alg».proof.Proof.Agg

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The gathered source rows the message kernel is handed. -/
theorem src_rows : V1 m ρ c main_v10
    = Cert.ReferenceIdeal.Read.val_main_v11 (F := Ideal) (m ((c.tc : Thread nD τ).loc main_arg0)) (m ((c.tc : Thread nD τ).loc main_arg1)) := by
  show StableHlo.after hostOps0 (W0 m ρ c) (Proc.devRef .tc main_v10) = _
  after_results
  rfl

/-- The gathered target rows the message kernel is handed. -/
theorem dst_rows : V1 m ρ c main_v17
    = Cert.ReferenceIdeal.Read.val_main_v18 (F := Ideal) (m ((c.tc : Thread nD τ).loc main_arg0)) (m ((c.tc : Thread nD τ).loc main_arg1)) := by
  show StableHlo.after hostOps0 (W0 m ρ c) (Proc.devRef .tc main_v17) = _
  after_results
  rfl

/-! The arguments the message kernel is handed are as launched. -/
theorem entry0_arg2 : V1 m ρ c main_arg2 = m ((c.tc : Thread nD τ).loc main_arg2) := by
  show StableHlo.after hostOps0 (W0 m ρ c) (Proc.devRef .tc main_arg2) = _
  after_results
theorem entry0_arg3 : V1 m ρ c main_arg3 = m ((c.tc : Thread nD τ).loc main_arg3) := by
  show StableHlo.after hostOps0 (W0 m ρ c) (Proc.devRef .tc main_arg3) = _
  after_results
theorem entry0_arg4 : V1 m ρ c main_arg4 = m ((c.tc : Thread nD τ).loc main_arg4) := by
  show StableHlo.after hostOps0 (W0 m ρ c) (Proc.devRef .tc main_arg4) = _
  after_results
theorem entry0_arg5 : V1 m ρ c main_arg5 = m ((c.tc : Thread nD τ).loc main_arg5) := by
  show StableHlo.after hostOps0 (W0 m ρ c) (Proc.devRef .tc main_arg5) = _
  after_results
theorem entry0_arg6 : V1 m ρ c main_arg6 = m ((c.tc : Thread nD τ).loc main_arg6) := by
  show StableHlo.after hostOps0 (W0 m ρ c) (Proc.devRef .tc main_arg6) = _
  after_results

/-- The target index of every edge, still as the first stretch left it when the second stretch reads it. -/
theorem dst_idx : W2 m ρ c (Proc.devRef .tc main_v3)
    = Cert.ReferenceIdeal.Read.val_main_v3 (F := Ideal) (m ((c.tc : Thread nD τ).loc main_arg1)) := by
  rw [W2_of_ne m ρ c main_v3 (by decide)]
  show StableHlo.after hostOps0 (W0 m ρ c) (Proc.devRef .tc main_v3) = _
  after_results
  rfl

/-- The aggregated messages the update kernel is handed: the reference's aggregation of whatever the message kernel
    left in its output array. -/
theorem agg_rows : V3 m ρ c main_v26
    = Cert.ReferenceIdeal.RefValue.agg (F := Ideal) (m ((c.tc : Thread nD τ).loc main_arg1)) (W2 m ρ c (Proc.devRef .tc main_v18)) := by
  show StableHlo.after hostOps1 (W2 m ρ c) (Proc.devRef .tc main_v26) = _
  after_results
  rw [dst_idx m ρ c]
  rfl

/-! The arguments the update kernel is handed are as launched. -/
theorem entry1_arg0 : V3 m ρ c main_arg0 = m ((c.tc : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results
theorem entry1_arg7 : V3 m ρ c main_arg7 = m ((c.tc : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem entry1_arg8 : V3 m ρ c main_arg8 = m ((c.tc : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
theorem entry1_arg9 : V3 m ρ c main_arg9 = m ((c.tc : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
theorem entry1_arg10 : V3 m ρ c main_arg10 = m ((c.tc : Thread nD τ).loc main_arg10) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

end Cert.KernelIdeal.HostValue

end
-- ==== Proof.Spec.lean ====
/-
  The mathematics of one message-passing step, written once over the extended reals.

  A dense layer takes a row `r` to `Σ_l r_l · W[l,h] + b[h]`; the two-layer perceptron `mlp` puts the rectifier
  `max · 0` between two dense layers. A message is the perceptron of the row made of the source node's features,
  the target node's features and `log(1 + ·)` of the edge's features, side by side; an updated node is the
  perceptron of the node's own features beside its aggregated messages. Each output row depends on the matching
  input rows only (`msg_row`, `upd_row`): that is what lets a block of rows be computed apart from the rest.
  The row count `R` is a parameter, so that the same function speaks of a block of rows and of the whole array.
-/
import Idealize.ShloMosaic.Lib.ValueIdx
import Idealize.ShloMosaic.PureOps.Ideal.Laws

noncomputable section

namespace Cert.Spec

open Idealize.ShloMosaic Idealize.ShloMosaic.ValueIdx

/-- An `a × b` matrix of extended reals. -/
abbrev Mat (a b : ℕ) : Type := (⟨2, ![a, b]⟩ : Shape).Idx → EReal
/-- A vector of `a` extended reals. -/
abbrev Vc (a : ℕ) : Type := (⟨1, ![a]⟩ : Shape).Idx → EReal

/-- The rectifier's threshold: the value of the single-precision zero word, which is `0`. -/
def zero32 : EReal := FloatOps.ofBits (F := Ideal) .f32 0x00000000#32

/-- A dense layer at output unit `h`: `Σ_l row_l · W[l,h] + b[h]`. -/
def dense {K H : ℕ} (row : Fin K → EReal) (W : Mat K H) (b : Vc H) (h : Fin H) : EReal :=
  (∑ l : Fin K, row l * W (ix2 l h)) + b (ix1 h)

/-- Two dense layers with the rectifier between them, at output unit `j`. -/
def mlp {K H D : ℕ} (row : Fin K → EReal) (W : Mat K H) (b : Vc H) (W' : Mat H D) (b' : Vc D) (j : Fin D) : EReal :=
  dense (fun h => max (dense row W b h) zero32) W' b' j

/-- `log(1 + ·)` entry by entry. -/
def lg {R C : ℕ} (ef : Mat R C) : Mat R C := fun i => Ideal.log1p (ef i)

/-- Three blocks of 64, 64 and 4 columns side by side, at row `e`. -/
def row3 {R : ℕ} (a b : Mat R 64) (c : Mat R 4) (e : Fin R) (l : Fin 132) : EReal :=
  if h : l.val < 64 then a (ix2 e ⟨l.val, h⟩)
  else if h' : l.val < 128 then b (ix2 e ⟨l.val - 64, by omega⟩)
  else c (ix2 e ⟨l.val - 128, by omega⟩)

/-- Two blocks of 64 columns side by side, at row `n`. -/
def row2 {R : ℕ} (a b : Mat R 64) (n : Fin R) (l : Fin 128) : EReal :=
  if h : l.val < 64 then a (ix2 n ⟨l.val, h⟩) else b (ix2 n ⟨l.val - 64, by omega⟩)

/-- The messages: for every edge the perceptron of (source features, target features, log1p of edge features). -/
def Msg {R : ℕ} (xs xd : Mat R 64) (ef : Mat R 4) (W1 : Mat 132 128) (b1 : Vc 128) (W2 : Mat 128 64) (b2 : Vc 64) : Mat R 64 :=
  fun i => mlp (row3 xs xd (lg ef) ⟨(i 0).val, idx2_lt0 i⟩) W1 b1 W2 b2 ⟨(i 1).val, idx2_lt1 i⟩

/-- The update: for every node the perceptron of (own features, aggregated messages). -/
def Upd {R : ℕ} (x agg : Mat R 64) (U1 : Mat 128 128) (c1 : Vc 128) (U2 : Mat 128 64) (c2 : Vc 64) : Mat R 64 :=
  fun i => mlp (row2 x agg ⟨(i 0).val, idx2_lt0 i⟩) U1 c1 U2 c2 ⟨(i 1).val, idx2_lt1 i⟩

theorem Msg_apply {R : ℕ} (xs xd : Mat R 64) (ef : Mat R 4) (W1 : Mat 132 128) (b1 : Vc 128) (W2 : Mat 128 64) (b2 : Vc 64)
    (e : Fin R) (q : Fin 64) :
    Msg xs xd ef W1 b1 W2 b2 (ix2 e q) = mlp (row3 xs xd (lg ef) e) W1 b1 W2 b2 q := rfl

theorem Upd_apply {R : ℕ} (x agg : Mat R 64) (U1 : Mat 128 128) (c1 : Vc 128) (U2 : Mat 128 64) (c2 : Vc 64)
    (n : Fin R) (q : Fin 64) :
    Upd x agg U1 c1 U2 c2 (ix2 n q) = mlp (row2 x agg n) U1 c1 U2 c2 q := rfl

/-- A message row depends only on the matching rows of its three inputs. -/
theorem msg_row {R R' : ℕ} (xs xd : Mat R 64) (ef : Mat R 4) (xs' xd' : Mat R' 64) (ef' : Mat R' 4)
    (W1 : Mat 132 128) (b1 : Vc 128) (W2 : Mat 128 64) (b2 : Vc 64) (e : Fin R) (e' : Fin R')
    (h0 : ∀ l : Fin 64, xs (ix2 e l) = xs' (ix2 e' l)) (h1 : ∀ l : Fin 64, xd (ix2 e l) = xd' (ix2 e' l))
    (h2 : ∀ l : Fin 4, ef (ix2 e l) = ef' (ix2 e' l)) (q : Fin 64) :
    Msg xs xd ef W1 b1 W2 b2 (ix2 e q) = Msg xs' xd' ef' W1 b1 W2 b2 (ix2 e' q) := by
  have hr : row3 xs xd (lg ef) e = row3 xs' xd' (lg ef') e' := by
    funext l
    unfold row3 lg
    split
    · exact h0 _
    · split
      · exact h1 _
      · exact congrArg Ideal.log1p (h2 _)
  rw [Msg_apply, Msg_apply, hr]

/-- An updated row depends only on the matching rows of its two inputs. -/
theorem upd_row {R R' : ℕ} (x agg : Mat R 64) (x' agg' : Mat R' 64)
    (U1 : Mat 128 128) (c1 : Vc 128) (U2 : Mat 128 64) (c2 : Vc 64) (n : Fin R) (n' : Fin R')
    (h0 : ∀ l : Fin 64, x (ix2 n l) = x' (ix2 n' l)) (h1 : ∀ l : Fin 64, agg (ix2 n l) = agg' (ix2 n' l)) (q : Fin 64) :
    Upd x agg U1 c1 U2 c2 (ix2 n q) = Upd x' agg' U1 c1 U2 c2 (ix2 n' q) := by
  have hr : row2 x agg n = row2 x' agg' n' := by
    funext l
    unfold row2
    split
    · exact h0 _
    · exact h1 _
  rw [Upd_apply, Upd_apply, hr]

end Cert.Spec

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.Layer.lean ====
/-
  The printed spellings of a dense layer, of the rectifier and of "blocks of columns side by side", read at an entry.

  A layer is printed as a matrix product into a zero accumulator plus a bias vector viewed as one row and repeated down
  the rows; on the extended reals a change of number format is the identity and the product is the exact sum, so the
  entry at `(p, h)` is `Σ_l L[p,l] · W[l,h] + b[h]`. Joining arrays along the column axis reads, at column `l`, the
  piece whose column span holds `l`.
-/
import proofs.«166490_j44160853737921_2_alg».proof.Proof.Spec
import proofs.«166490_j44160853737921_2_alg».proof.Proof.LibMatmulPlain
import Idealize.ShloMosaic.Lib.ValueLayout
import Idealize.ShloMosaic.Lib.Pipeline.Value

noncomputable section

namespace Cert.Layer

open Idealize.ShloMosaic Idealize.ShloMosaic.ValueIdx Cert.Spec

/-- A bias vector viewed as one row and repeated down the rows reads, at `(p, h)`, its entry `h`. -/
theorem bias_apply {A H : ℕ} (b : Vc H) (h1 : (⟨1, ![H]⟩ : Shape).ShapeCasts ⟨2, ![1, H]⟩)
    (h2 : (⟨2, ![1, H]⟩ : Shape).Broadcasts ⟨2, ![A, H]⟩) (p : Fin A) (h : Fin H) :
    broadcastTo ⟨2, ![A, H]⟩ (shapeCast ⟨2, ![1, H]⟩ b h1) h2 (ix2 p h) = b (ix1 h) := by
  rw [broadcastTo_1b_ab_apply, shapeCast_a_1a_apply]

/-- The kernel's dense layer — both operands narrowed to bf16, multiplied into a zero accumulator, the bias row added —
    at `(p, h)`. -/
theorem kdense_apply {A K H : ℕ} (d : DotDims ⟨2, ![A, K]⟩ ⟨2, ![K, H]⟩ ⟨2, ![A, H]⟩) (hd : d = DotDims.plain A K H)
    (prec : Option ContractPrecision) (L : FVec Ideal ⟨2, ![A, K]⟩ .f32) (W : FVec Ideal ⟨2, ![K, H]⟩ .f32) (b : Vc H)
    (hL : FTy.bf16.bits < FTy.f32.bits) (hW : FTy.bf16.bits < FTy.f32.bits)
    (h1 : (⟨1, ![H]⟩ : Shape).ShapeCasts ⟨2, ![1, H]⟩) (h2 : (⟨2, ![1, H]⟩ : Shape).Broadcasts ⟨2, ![A, H]⟩)
    (p : Fin A) (h : Fin H) :
    addf (matmul d prec (truncf .bf16 L hL) (truncf .bf16 W hW) (constant ⟨2, ![A, H]⟩ .f32 0x00000000#32))
        (broadcastTo ⟨2, ![A, H]⟩ (shapeCast ⟨2, ![1, H]⟩ b h1) h2) (ix2 p h)
      = dense (fun l => L (ix2 p l)) W b h := by
  subst hd
  show FloatOps.matmul (F := Ideal) (DotDims.plain A K H) prec (truncf .bf16 L hL) (truncf .bf16 W hW)
      (constant ⟨2, ![A, H]⟩ .f32 0x00000000#32) (ix2 p h) + broadcastTo ⟨2, ![A, H]⟩ (shapeCast ⟨2, ![1, H]⟩ b h1) h2 (ix2 p h) = _
  rw [Cert.Lib.MatmulPlain.matmul_plain_zero_apply, bias_apply]
  rfl

/-- The kernel's rectifier: the maximum with a splat of the zero word. -/
theorem krelu_apply {s : Shape} (X : FVec Ideal s .f32) (i : s.Idx) :
    maximumf X (broadcast s (Scalar.ofBits (F := Ideal) .f32 0x00000000#32)) i = max (X i) zero32 := rfl

/-- Three pieces of 64, 64 and 4 columns joined along the column axis, at `(e, l)`. -/
theorem cat3_apply {R : ℕ} (a b : Mat R 64) (c : Mat R 4)
    (h : Shape.Concatenates [(⟨2, ![R, 64]⟩ : Shape), ⟨2, ![R, 64]⟩, ⟨2, ![R, 4]⟩] ⟨2, ![R, 132]⟩ 1) (e : Fin R) (l : Fin 132) :
    concatenate (⟨2, ![R, 132]⟩ : Shape) 1 [⟨⟨2, ![R, 64]⟩, a⟩, ⟨⟨2, ![R, 64]⟩, b⟩, ⟨⟨2, ![R, 4]⟩, c⟩] h (ix2 e l) = row3 a b c e l := by
  unfold row3
  split
  · next hl =>
    exact concatenate_apply_piece 1 [(⟨⟨2, ![R, 64]⟩, a⟩ : (s : Shape) × (s.Idx → EReal)), ⟨⟨2, ![R, 64]⟩, b⟩, ⟨⟨2, ![R, 4]⟩, c⟩] h (ix2 e l) 0 (Nat.zero_lt_succ _) ⟨2, ![R, 64]⟩ a rfl rfl 0 rfl (ix2 e ⟨l.val, hl⟩)
      (fun bx hb => by match bx with | ⟨0, _⟩ => rfl | ⟨1, _⟩ => exact absurd (Fin.ext rfl) hb) (Nat.zero_add _)
  · next hl =>
    split
    · next hl' =>
      exact concatenate_apply_piece 1 [(⟨⟨2, ![R, 64]⟩, a⟩ : (s : Shape) × (s.Idx → EReal)), ⟨⟨2, ![R, 64]⟩, b⟩, ⟨⟨2, ![R, 4]⟩, c⟩] h (ix2 e l) 1 (Nat.succ_lt_succ (Nat.zero_lt_succ _)) ⟨2, ![R, 64]⟩ b rfl rfl 64 rfl (ix2 e ⟨l.val - 64, by omega⟩)
        (fun bx hb => by match bx with | ⟨0, _⟩ => rfl | ⟨1, _⟩ => exact absurd (Fin.ext rfl) hb)
        (by show 64 + (l.val - 64) = l.val; omega)
    · next hl' =>
      exact concatenate_apply_piece 1 [(⟨⟨2, ![R, 64]⟩, a⟩ : (s : Shape) × (s.Idx → EReal)), ⟨⟨2, ![R, 64]⟩, b⟩, ⟨⟨2, ![R, 4]⟩, c⟩] h (ix2 e l) 2 (Nat.lt_succ_self _) ⟨2, ![R, 4]⟩ c rfl rfl 128 rfl (ix2 e ⟨l.val - 128, by omega⟩)
        (fun bx hb => by match bx with | ⟨0, _⟩ => rfl | ⟨1, _⟩ => exact absurd (Fin.ext rfl) hb)
        (by show 128 + (l.val - 128) = l.val; omega)

/-- Two pieces of 64 columns joined along the column axis, at `(n, l)`. -/
theorem cat2_apply {R : ℕ} (a b : Mat R 64)
    (h : Shape.Concatenates [(⟨2, ![R, 64]⟩ : Shape), ⟨2, ![R, 64]⟩] ⟨2, ![R, 128]⟩ 1) (n : Fin R) (l : Fin 128) :
    concatenate (⟨2, ![R, 128]⟩ : Shape) 1 [⟨⟨2, ![R, 64]⟩, a⟩, ⟨⟨2, ![R, 64]⟩, b⟩] h (ix2 n l) = row2 a b n l := by
  unfold row2
  split
  · next hl =>
    exact concatenate_apply_piece 1 [(⟨⟨2, ![R, 64]⟩, a⟩ : (s : Shape) × (s.Idx → EReal)), ⟨⟨2, ![R, 64]⟩, b⟩] h (ix2 n l) 0 (Nat.zero_lt_succ _) ⟨2, ![R, 64]⟩ a rfl rfl 0 rfl (ix2 n ⟨l.val, hl⟩)
      (fun bx hb => by match bx with | ⟨0, _⟩ => rfl | ⟨1, _⟩ => exact absurd (Fin.ext rfl) hb) (Nat.zero_add _)
  · next hl =>
    exact concatenate_apply_piece 1 [(⟨⟨2, ![R, 64]⟩, a⟩ : (s : Shape) × (s.Idx → EReal)), ⟨⟨2, ![R, 64]⟩, b⟩] h (ix2 n l) 1 (Nat.lt_succ_self _) ⟨2, ![R, 64]⟩ b rfl rfl 64 rfl (ix2 n ⟨l.val - 64, by omega⟩)
      (fun bx hb => by match bx with | ⟨0, _⟩ => rfl | ⟨1, _⟩ => exact absurd (Fin.ext rfl) hb)
      (by show 64 + (l.val - 64) = l.val; omega)

end Cert.Layer

end
-- ==== Proof.KernelBody.lean ====
/-
  What the two kernel bodies compute, as functions of the blocks they load.

  The message kernel's stored value is, entry by entry, the perceptron of the block's rows: source features, target
  features and log1p of the edge features side by side, through the two dense layers with the rectifier between. The
  update kernel's is the perceptron of the node features beside the aggregated messages. Narrowing to bf16 before each
  product changes nothing on the extended reals.
-/
import proofs.«166490_j44160853737921_2_alg».proof.Proof.Gen.KernelIdeal.Skeleton
import proofs.«166490_j44160853737921_2_alg».proof.Proof.Layer

noncomputable section

namespace Cert.KernelIdeal.Body

open Idealize.ShloMosaic Idealize.ShloMosaic.ValueIdx Cert.Spec Cert.Layer Cert.KernelIdeal Cert.KernelIdeal.Gen

/-- The message kernel's stored block is `Msg` of the loaded blocks. -/
theorem msg_payload (v0 : Vec Ideal S2000x4 .f32) (v2 v4 : Vec Ideal S2000x64 .f32) (v8 : Vec Ideal S132x128 .f32)
    (v11 : Vec Ideal S128 .f32) (v18 : Vec Ideal S128x64 .f32) (v21 : Vec Ideal S64 .f32) :
    k0_pay1 (F := Ideal) v0 v2 v4 v8 v11 v18 v21 = Msg v2 v4 v0 v8 v11 v18 v21 := by
  funext j
  obtain ⟨p, q, rfl⟩ : ∃ (p : Fin 2000) (q : Fin 64), j = ix2 p q := ⟨j 0, j 1, eq_ix2 j⟩
  rw [Msg_apply]
  unfold mlp
  dsimp only [k0_pay1]
  refine (kdense_apply _ rfl _ _ _ _ _ _ _ _ p q).trans ?_
  refine congrArg (fun r => dense r v18 v21 q) (funext fun h => ?_)
  refine (krelu_apply _ _).trans ?_
  refine congrArg (fun z => max z zero32) ?_
  refine (kdense_apply _ rfl _ _ _ _ _ _ _ _ p h).trans ?_
  refine congrArg (fun r => dense r v8 v11 h) (funext fun l => ?_)
  rw [shapeCast_self, shapeCast_self]
  exact cat3_apply v2 v4 (lg v0) _ p l

/-- The update kernel's stored block is `Upd` of the loaded blocks. -/
theorem upd_payload (v0 v1 : Vec Ideal S5000x64 .f32) (v5 : Vec Ideal S128x128 .f32)
    (v8 : Vec Ideal S128 .f32) (v15 : Vec Ideal S128x64 .f32) (v18 : Vec Ideal S64 .f32) :
    k1_pay1 (F := Ideal) v0 v1 v5 v8 v15 v18 = Upd v0 v1 v5 v8 v15 v18 := by
  funext j
  obtain ⟨p, q, rfl⟩ : ∃ (p : Fin 5000) (q : Fin 64), j = ix2 p q := ⟨j 0, j 1, eq_ix2 j⟩
  rw [Upd_apply]
  unfold mlp
  dsimp only [k1_pay1]
  refine (kdense_apply _ rfl _ _ _ _ _ _ _ _ p q).trans ?_
  refine congrArg (fun r => dense r v15 v18 q) (funext fun h => ?_)
  refine (krelu_apply _ _).trans ?_
  refine congrArg (fun z => max z zero32) ?_
  refine (kdense_apply _ rfl _ _ _ _ _ _ _ _ p h).trans ?_
  refine congrArg (fun r => dense r v5 v8 h) (funext fun l => ?_)
  rw [shapeCast_self]
  exact cat2_apply v0 v1 _ p l

end Cert.KernelIdeal.Body

end
-- ==== Proof.MsgBlocks.lean ====
/-
  From the message kernel's blocks to the whole message array.

  Grid point `t` of 400 is handed rows `2000·t … 2000·t + 1999` of the gathered source rows, of the gathered target rows
  and of the edge features, together with the whole weight and bias arrays, and writes back rows `2000·t …` of the
  output. What it writes is the message function of its input blocks, and a message row depends only on the matching
  input rows, so block `t` of the output is block `t` of the message function of the WHOLE inputs. The 400 blocks tile
  the 800000 rows (row `r` is in block `r / 2000`), so after the last write-back the array is that function.
-/
import proofs.«166490_j44160853737921_2_alg».proof.Proof.Gen.KernelIdeal.Frame
import proofs.«166490_j44160853737921_2_alg».proof.Proof.KernelBody
import Idealize.ShloMosaic.Lib.Pipeline.Value

set_option maxRecDepth 16384

noncomputable section

namespace Cert.KernelIdeal.MsgBlocks

open Idealize.ShloMosaic Idealize.ShloMosaic.TcCoe Idealize.ShloMosaic.ValueIdx Idealize.SL.Sem
open Idealize.ShloMosaic.Pipeline (Dat Cfg Window)
open Cert.Spec Cert.KernelIdeal Cert.KernelIdeal.Gen Cert.KernelIdeal.Body

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block `t` of the rows, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem t_lt (t : Fin cfg0.N) : t.val < 400 := lt_of_lt_of_eq t.isLt N_0

/-! ## The input blocks, read off the arrays -/

theorem src_blk (t : Fin cfg0.N) (p : Fin 2000) (l : Fin 64) (e : Fin 800000) (he : e.val = 2000 * t.val + p.val) :
    iblk0 V c 0 t (ix2 p l) = V c main_v10 (ix2 e l) := by
  show V c main_v10 (((cfg0.win 0).blk t).view.emb (ix2 p l)) = V c main_v10 (ix2 e l)
  refine congrArg (V c main_v10) (funext fun a => Fin.ext ?_)
  obtain ⟨h0, h1, -⟩ := idx_facts t
  match a with
  | ⟨0, _⟩ => show win0_0.index t (0 : Fin 2) * 2000 + 1 * p.val = e.val; omega
  | ⟨1, _⟩ => show win0_0.index t (1 : Fin 2) * 64 + 1 * l.val = l.val; omega

theorem dst_blk (t : Fin cfg0.N) (p : Fin 2000) (l : Fin 64) (e : Fin 800000) (he : e.val = 2000 * t.val + p.val) :
    iblk0 V c 1 t (ix2 p l) = V c main_v17 (ix2 e l) := by
  show V c main_v17 (((cfg0.win 1).blk t).view.emb (ix2 p l)) = V c main_v17 (ix2 e l)
  refine congrArg (V c main_v17) (funext fun a => Fin.ext ?_)
  obtain ⟨-, -, h0, h1, -⟩ := idx_facts t
  match a with
  | ⟨0, _⟩ => show win0_1.index t (0 : Fin 2) * 2000 + 1 * p.val = e.val; omega
  | ⟨1, _⟩ => show win0_1.index t (1 : Fin 2) * 64 + 1 * l.val = l.val; omega

theorem ef_blk (t : Fin cfg0.N) (p : Fin 2000) (l : Fin 4) (e : Fin 800000) (he : e.val = 2000 * t.val + p.val) :
    iblk0 V c 2 t (ix2 p l) = V c main_arg2 (ix2 e l) := by
  show V c main_arg2 (((cfg0.win 2).blk t).view.emb (ix2 p l)) = V c main_arg2 (ix2 e l)
  refine congrArg (V c main_arg2) (funext fun a => Fin.ext ?_)
  obtain ⟨-, -, -, -, h0, h1, -⟩ := idx_facts t
  match a with
  | ⟨0, _⟩ => show win0_2.index t (0 : Fin 2) * 2000 + 1 * p.val = e.val; omega
  | ⟨1, _⟩ => show win0_2.index t (1 : Fin 2) * 4 + 1 * l.val = l.val; omega

theorem w1_blk (t : Fin cfg0.N) : iblk0 V c 3 t = V c main_arg3 := by
  funext y
  show V c main_arg3 (((cfg0.win 3).blk t).view.emb y) = V c main_arg3 y
  refine congrArg (V c main_arg3) (funext fun a => Fin.ext ?_)
  obtain ⟨-, -, -, -, -, -, h0, h1, -⟩ := idx_facts t
  match a with
  | ⟨0, _⟩ => show win0_3.index t (0 : Fin 2) * 132 + 1 * (y 0).val = (y 0).val; omega
  | ⟨1, _⟩ => show win0_3.index t (1 : Fin 2) * 128 + 1 * (y 1).val = (y 1).val; omega

theorem b1_blk (t : Fin cfg0.N) : iblk0 V c 4 t = V c main_arg4 := by
  funext y
  show V c main_arg4 (((cfg0.win 4).blk t).view.emb y) = V c main_arg4 y
  refine congrArg (V c main_arg4) (funext fun a => Fin.ext ?_)
  obtain ⟨-, -, -, -, -, -, -, -, h0, -⟩ := idx_facts t
  match a with
  | ⟨0, _⟩ => show win0_4.index t (0 : Fin 1) * 128 + 1 * (y 0).val = (y 0).val; omega

theorem w2_blk (t : Fin cfg0.N) : iblk0 V c 5 t = V c main_arg5 := by
  funext y
  show V c main_arg5 (((cfg0.win 5).blk t).view.emb y) = V c main_arg5 y
  refine congrArg (V c main_arg5) (funext fun a => Fin.ext ?_)
  obtain ⟨-, -, -, -, -, -, -, -, -, h0, h1, -⟩ := idx_facts t
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem b2_blk (t : Fin cfg0.N) : iblk0 V c 6 t = V c main_arg6 := by
  funext y
  show V c main_arg6 (((cfg0.win 6).blk t).view.emb y) = V c main_arg6 y
  refine congrArg (V c main_arg6) (funext fun a => Fin.ext ?_)
  obtain ⟨-, -, -, -, -, -, -, -, -, -, -, h0, -⟩ := idx_facts t
  match a with
  | ⟨0, _⟩ => show win0_6.index t (0 : Fin 1) * 64 + 1 * (y 0).val = (y 0).val; omega

/-! ## What a point writes back -/

/-- Point `t` writes back block `t` of the message function of the whole input arrays. -/
theorem flushed_msg (t : Fin cfg0.N) :
    (dat0 V c).flushed 7 t = ((cfg0.win 7).blk t).view.read (Elt Ideal)
      (Msg (V c main_v10) (V c main_v17) (V c main_arg2) (V c main_arg3) (V c main_arg4) (V c main_arg5) (V c main_arg6)) := by
  show (cfg0.win 7).cut (grid0.coords t) ((dat0 V c).after 7 t) = _
  rw [after0_7]
  unfold out0_7
  rw [View.canon_unit_zero hz2]
  simp only [View.ld_unit_zero (S := S2000x4) hz2, View.ld_unit_zero (S := S2000x64) hz2, View.ld_unit_zero (S := S132x128) hz2,
    View.ld_unit_zero (S := S128) hz1, View.ld_unit_zero (S := S128x64) hz2, View.ld_unit_zero (S := S64) hz1]
  rw [msg_payload, w1_blk, b1_blk, w2_blk, b2_blk]
  funext y
  obtain ⟨p, q, rfl⟩ : ∃ (p : Fin 2000) (q : Fin 64), y = ix2 p q := ⟨y 0, y 1, eq_ix2 y⟩
  have ht := t_lt t
  have hemb : ((cfg0.win 7).blk t).view.emb (ix2 p q) = ix2 (⟨2000 * t.val + p.val, by omega⟩ : Fin 800000) q := by
    funext a; apply Fin.ext
    obtain ⟨-, -, -, -, -, -, -, -, -, -, -, -, h0, h1⟩ := idx_facts t
    match a with
    | ⟨0, _⟩ => show win0_7.index t (0 : Fin 2) * 2000 + 1 * p.val = 2000 * t.val + p.val; omega
    | ⟨1, _⟩ => show win0_7.index t (1 : Fin 2) * 64 + 1 * q.val = q.val; omega
  show Msg (iblk0 V c 0 t) (iblk0 V c 1 t) (iblk0 V c 2 t) (V c main_arg3) (V c main_arg4) (V c main_arg5) (V c main_arg6) (ix2 p q)
    = Msg (V c main_v10) (V c main_v17) (V c main_arg2) (V c main_arg3) (V c main_arg4) (V c main_arg5) (V c main_arg6)
        (((cfg0.win 7).blk t).view.emb (ix2 p q))
  rw [hemb]
  exact msg_row _ _ _ _ _ _ _ _ _ _ p _ (fun l => src_blk V c t p l _ rfl) (fun l => dst_blk V c t p l _ rfl)
    (fun l => ef_blk V c t p l _ rfl) q

/-! ## The blocks tile the array -/

theorem mem_blk (t : Fin cfg0.N) (i : S800000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v18).slice (win0_7.rect t)).set ↔ _
  rw [View.set_slice_whole, Rect.mem_set_unit]
  exact Iff.rfl

/-- Row `r` of the output is in the block of point `r / 2000`. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  have hN : (i 0).val / 2000 < cfg0.N := lt_of_lt_of_eq (by omega : (i 0).val / 2000 < 400) N_0.symm
  refine ⟨⟨(i 0).val / 2000, hN⟩, flush0_7 _, ?_⟩
  rw [mem_blk]
  obtain ⟨-, -, -, -, -, -, -, -, -, -, -, -, h0, h1⟩ := idx_facts ⟨(i 0).val / 2000, hN⟩
  intro a
  match a with
  | ⟨0, _⟩ =>
    show win0_7.index ⟨(i 0).val / 2000, hN⟩ (0 : Fin 2) * 2000 ≤ (i 0).val
      ∧ (i 0).val < win0_7.index ⟨(i 0).val / 2000, hN⟩ (0 : Fin 2) * 2000 + 2000
    rw [h0]; show (i 0).val / 2000 * 2000 ≤ (i 0).val ∧ (i 0).val < (i 0).val / 2000 * 2000 + 2000; omega
  | ⟨1, _⟩ =>
    show win0_7.index ⟨(i 0).val / 2000, hN⟩ (1 : Fin 2) * 64 ≤ (i 1).val
      ∧ (i 1).val < win0_7.index ⟨(i 0).val / 2000, hN⟩ (1 : Fin 2) * 64 + 64
    rw [h1]; omega

/-- After the last write-back the message array is the message function of the arrays the region was handed. -/
theorem final : (dat0 V c).arrAt 7 cfg0.N
    = Msg (V c main_v10) (V c main_v17) (V c main_arg2) (V c main_arg3) (V c main_arg4) (V c main_arg5) (V c main_arg6) :=
  (dat0 V c).arrAt_eq_of_cover 7 _ (fun t _ => flushed_msg V c t) cover

end Cert.KernelIdeal.MsgBlocks

end
-- ==== Proof.UpdBlocks.lean ====
/-
  From the update kernel's blocks to the whole result array.

  Grid point `t` of 20 is handed rows `5000·t … 5000·t + 4999` of the node features and of the aggregated messages,
  together with the whole weight and bias arrays, and writes back rows `5000·t …` of the result. What it writes is the
  update function of its input blocks, and an updated row depends only on the matching input rows, so block `t` of the
  result is block `t` of the update function of the WHOLE inputs. The 20 blocks tile the 100000 rows (row `r` is in
  block `r / 5000`), so after the last write-back the array is that function.
-/
import proofs.«166490_j44160853737921_2_alg».proof.Proof.Gen.KernelIdeal.Frame
import proofs.«166490_j44160853737921_2_alg».proof.Proof.KernelBody
import Idealize.ShloMosaic.Lib.Pipeline.Value

set_option maxRecDepth 16384

noncomputable section

namespace Cert.KernelIdeal.UpdBlocks

open Idealize.ShloMosaic Idealize.ShloMosaic.TcCoe Idealize.ShloMosaic.ValueIdx Idealize.SL.Sem
open Idealize.ShloMosaic.Pipeline (Dat Cfg Window)
open Cert.Spec Cert.KernelIdeal Cert.KernelIdeal.Gen Cert.KernelIdeal.Body

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block `t` of the rows, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 20 := lt_of_lt_of_eq t.isLt N_1

/-! ## The input blocks, read off the arrays -/

theorem x_blk (t : Fin cfg1.N) (p : Fin 5000) (l : Fin 64) (n : Fin 100000) (hn : n.val = 5000 * t.val + p.val) :
    iblk1 V c 0 t (ix2 p l) = V c main_arg0 (ix2 n l) := by
  show V c main_arg0 (((cfg1.win 0).blk t).view.emb (ix2 p l)) = V c main_arg0 (ix2 n l)
  refine congrArg (V c main_arg0) (funext fun a => Fin.ext ?_)
  obtain ⟨h0, h1, -⟩ := idx_facts t
  match a with
  | ⟨0, _⟩ => show win1_0.index t (0 : Fin 2) * 5000 + 1 * p.val = n.val; omega
  | ⟨1, _⟩ => show win1_0.index t (1 : Fin 2) * 64 + 1 * l.val = l.val; omega

theorem agg_blk (t : Fin cfg1.N) (p : Fin 5000) (l : Fin 64) (n : Fin 100000) (hn : n.val = 5000 * t.val + p.val) :
    iblk1 V c 1 t (ix2 p l) = V c main_v26 (ix2 n l) := by
  show V c main_v26 (((cfg1.win 1).blk t).view.emb (ix2 p l)) = V c main_v26 (ix2 n l)
  refine congrArg (V c main_v26) (funext fun a => Fin.ext ?_)
  obtain ⟨-, -, h0, h1, -⟩ := idx_facts t
  match a with
  | ⟨0, _⟩ => show win1_1.index t (0 : Fin 2) * 5000 + 1 * p.val = n.val; omega
  | ⟨1, _⟩ => show win1_1.index t (1 : Fin 2) * 64 + 1 * l.val = l.val; omega

theorem u1_blk (t : Fin cfg1.N) : iblk1 V c 2 t = V c main_arg7 := by
  funext y
  show V c main_arg7 (((cfg1.win 2).blk t).view.emb y) = V c main_arg7 y
  refine congrArg (V c main_arg7) (funext fun a => Fin.ext ?_)
  obtain ⟨-, -, -, -, h0, h1, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem c1_blk (t : Fin cfg1.N) : iblk1 V c 3 t = V c main_arg8 := by
  funext y
  show V c main_arg8 (((cfg1.win 3).blk t).view.emb y) = V c main_arg8 y
  refine congrArg (V c main_arg8) (funext fun a => Fin.ext ?_)
  obtain ⟨-, -, -, -, -, -, h0, -⟩ := idx_facts t
  match a with
  | ⟨0, _⟩ => show win1_3.index t (0 : Fin 1) * 128 + 1 * (y 0).val = (y 0).val; omega

theorem u2_blk (t : Fin cfg1.N) : iblk1 V c 4 t = V c main_arg9 := by
  funext y
  show V c main_arg9 (((cfg1.win 4).blk t).view.emb y) = V c main_arg9 y
  refine congrArg (V c main_arg9) (funext fun a => Fin.ext ?_)
  obtain ⟨-, -, -, -, -, -, -, h0, h1, -⟩ := idx_facts t
  match a with
  | ⟨0, _⟩ => show win1_4.index t (0 : Fin 2) * 128 + 1 * (y 0).val = (y 0).val; omega
  | ⟨1, _⟩ => show win1_4.index t (1 : Fin 2) * 64 + 1 * (y 1).val = (y 1).val; omega

theorem c2_blk (t : Fin cfg1.N) : iblk1 V c 5 t = V c main_arg10 := by
  funext y
  show V c main_arg10 (((cfg1.win 5).blk t).view.emb y) = V c main_arg10 y
  refine congrArg (V c main_arg10) (funext fun a => Fin.ext ?_)
  obtain ⟨-, -, -, -, -, -, -, -, -, h0, -⟩ := idx_facts t
  match a with
  | ⟨0, _⟩ => show win1_5.index t (0 : Fin 1) * 64 + 1 * (y 0).val = (y 0).val; omega

/-! ## What a point writes back -/

/-- Point `t` writes back block `t` of the update function of the whole input arrays. -/
theorem flushed_upd (t : Fin cfg1.N) :
    (dat1 V c).flushed 6 t = ((cfg1.win 6).blk t).view.read (Elt Ideal)
      (Upd (V c main_arg0) (V c main_v26) (V c main_arg7) (V c main_arg8) (V c main_arg9) (V c main_arg10)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S128x128) hz2,
    View.ld_unit_zero (S := S128) hz1, View.ld_unit_zero (S := S128x64) hz2, View.ld_unit_zero (S := S64) hz1]
  rw [upd_payload, u1_blk, c1_blk, u2_blk, c2_blk]
  funext y
  obtain ⟨p, q, rfl⟩ : ∃ (p : Fin 5000) (q : Fin 64), y = ix2 p q := ⟨y 0, y 1, eq_ix2 y⟩
  have ht := t_lt t
  have hemb : ((cfg1.win 6).blk t).view.emb (ix2 p q) = ix2 (⟨5000 * t.val + p.val, by omega⟩ : Fin 100000) q := by
    funext a; apply Fin.ext
    obtain ⟨-, -, -, -, -, -, -, -, -, -, h0, h1⟩ := idx_facts t
    match a with
    | ⟨0, _⟩ => show win1_6.index t (0 : Fin 2) * 5000 + 1 * p.val = 5000 * t.val + p.val; omega
    | ⟨1, _⟩ => show win1_6.index t (1 : Fin 2) * 64 + 1 * q.val = q.val; omega
  show Upd (iblk1 V c 0 t) (iblk1 V c 1 t) (V c main_arg7) (V c main_arg8) (V c main_arg9) (V c main_arg10) (ix2 p q)
    = Upd (V c main_arg0) (V c main_v26) (V c main_arg7) (V c main_arg8) (V c main_arg9) (V c main_arg10)
        (((cfg1.win 6).blk t).view.emb (ix2 p q))
  rw [hemb]
  exact upd_row _ _ _ _ _ _ _ _ p _ (fun l => x_blk V c t p l _ rfl) (fun l => agg_blk V c t p l _ rfl) q

/-! ## The blocks tile the array -/

theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v27).slice (win1_6.rect t)).set ↔ _
  rw [View.set_slice_whole, Rect.mem_set_unit]
  exact Iff.rfl

/-- Row `r` of the result is in the block of point `r / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_6 _, ?_⟩
  rw [mem_blk]
  obtain ⟨-, -, -, -, -, -, -, -, -, -, h0, h1⟩ := idx_facts ⟨(i 0).val / 5000, hN⟩
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [h0]; show (i 0).val / 5000 * 5000 ≤ (i 0).val ∧ (i 0).val < (i 0).val / 5000 * 5000 + 5000; omega
  | ⟨1, _⟩ =>
    show win1_6.index ⟨(i 0).val / 5000, hN⟩ (1 : Fin 2) * 64 ≤ (i 1).val
      ∧ (i 1).val < win1_6.index ⟨(i 0).val / 5000, hN⟩ (1 : Fin 2) * 64 + 64
    rw [h1]; omega

/-- After the last write-back the result array is the update function of the arrays the region was handed. -/
theorem final : (dat1 V c).arrAt 6 cfg1.N
    = Upd (V c main_arg0) (V c main_v26) (V c main_arg7) (V c main_arg8) (V c main_arg9) (V c main_arg10) :=
  (dat1 V c).arrAt_eq_of_cover 6 _ (fun t _ => flushed_upd V c t) cover

end Cert.KernelIdeal.UpdBlocks

end
-- ==== Proof.Whole.lean ====
/-
  The whole step as one function of the eleven arguments: gather the source and target rows of every edge, compute the
  messages, add each message into its target node's row, and update every node from its own features and its
  aggregated messages. Both programs are shown to end with their result array at this function of their arguments.
-/
import proofs.«166490_j44160853737921_2_alg».proof.Proof.Agg
import proofs.«166490_j44160853737921_2_alg».proof.Proof.Spec

noncomputable section

namespace Cert.Whole

open Idealize.ShloMosaic Cert.Spec Cert.ReferenceIdeal Cert.ReferenceIdeal.Read Cert.ReferenceIdeal.RefValue

/-- The updated node features. -/
def result (x0 : (⟨S100000x64, .f32⟩ : BufTy).Contents (Elt Ideal)) (x1 : (⟨S2x800000, .i32⟩ : BufTy).Contents (Elt Ideal))
    (x2 : (⟨S800000x4, .f32⟩ : BufTy).Contents (Elt Ideal)) (x3 : (⟨S132x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) : (⟨S100000x64, .f32⟩ : BufTy).Contents (Elt Ideal) :=
  Upd x0 (agg (F := Ideal) x1 (Msg (val_main_v11 (F := Ideal) x0 x1) (val_main_v18 (F := Ideal) x0 x1) x2 x3 x4 x5 x6)) x7 x8 x9 x10

end Cert.Whole

end
-- ==== Proof.KernelValue.lean ====
/-
  The idealized kernel ends at the whole-step function.

  The message kernel's output array is the message function of the gathered rows (its blocks tile the edges); the host
  stretch between the kernels aggregates exactly that array; the update kernel's output array is the update function
  of the node features and the aggregated array (its blocks tile the nodes); and every argument array is read as
  launched. Chaining these through the boundaries gives the result buffer's final contents.
-/
import proofs.«166490_j44160853737921_2_alg».proof.Proof.KernelHost
import proofs.«166490_j44160853737921_2_alg».proof.Proof.MsgBlocks
import proofs.«166490_j44160853737921_2_alg».proof.Proof.UpdBlocks
import proofs.«166490_j44160853737921_2_alg».proof.Proof.Whole

set_option maxRecDepth 16384

noncomputable section

namespace Cert.KernelIdeal.KernelValue

open Idealize.ShloMosaic Idealize.ShloMosaic.TcCoe Idealize.SL.Sem
open Cert.Spec Cert.KernelIdeal Cert.KernelIdeal.Gen Cert.KernelIdeal.HostValue

variable (m : (ℓ : Loc nD τ sig) → Buf (Elt Ideal) ℓ) (ρ : Dev nD → PrngReg) (c : Dev nD)

/-- What the message kernel leaves in its output array. -/
theorem msgs : W2 m ρ c (Proc.devRef .tc main_v18)
    = Msg (Cert.ReferenceIdeal.Read.val_main_v11 (F := Ideal) (m ((c.tc : Thread nD τ).loc main_arg0)) (m ((c.tc : Thread nD τ).loc main_arg1)))
        (Cert.ReferenceIdeal.Read.val_main_v18 (F := Ideal) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  refine (W2_arr m ρ c 7).trans ?_
  rw [Cert.KernelIdeal.MsgBlocks.final (V1 m ρ) c, src_rows m ρ c, dst_rows m ρ c, entry0_arg2 m ρ c, entry0_arg3 m ρ c,
    entry0_arg4 m ρ c, entry0_arg5 m ρ c, entry0_arg6 m ρ c]

/-- What the update kernel leaves in the result array. -/
theorem out : W4 m ρ c (Proc.devRef .tc main_v27) = Cert.Whole.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 6).trans ?_
  rw [Cert.KernelIdeal.UpdBlocks.final (V3 m ρ) c, agg_rows m ρ c, msgs m ρ c, entry1_arg0 m ρ c, entry1_arg7 m ρ c,
    entry1_arg8 m ρ c, entry1_arg9 m ρ c, entry1_arg10 m ρ c]
  rfl

end Cert.KernelIdeal.KernelValue

end
-- ==== Proof.RefStages.lean ====
/-
  The reference's two perceptrons, read entry by entry.

  The reference applies each layer to the whole array: a product over the 132 (or 128) joined columns, the bias repeated
  down the rows, the maximum with zero, the second product and bias. At the entry `(e, q)` that is the perceptron of row
  `e` of the joined inputs — the same function of the same rows that the kernel computes block by block.
-/
import proofs.«166490_j44160853737921_2_alg».proof.Proof.Gen.ReferenceIdeal.Read
import proofs.«166490_j44160853737921_2_alg».proof.Proof.Layer

noncomputable section

namespace Cert.ReferenceIdeal.RefValue

open Idealize.ShloMosaic Idealize.ShloMosaic.ValueIdx Cert.Spec Cert.Layer Cert.ReferenceIdeal Cert.ReferenceIdeal.Read

/-! ## The operand indices of the products and the bias rows, in coordinates -/

theorem l20 (e : Fin 800000) (k : Fin 128) (l : Fin 132) : lidx_main_v20 (ix2 e k) l = ix2 e l :=
  funext fun a => Fin.ext (by match a with | ⟨0, _⟩ => rfl | ⟨1, _⟩ => rfl)
theorem r20 (e : Fin 800000) (k : Fin 128) (l : Fin 132) : ridx_main_v20 (ix2 e k) l = ix2 l k :=
  funext fun a => Fin.ext (by match a with | ⟨0, _⟩ => rfl | ⟨1, _⟩ => rfl)
theorem b22 (e : Fin 800000) (k : Fin 128) : idx_main_v21 (idx_main_v22 (ix2 e k)) = ix1 k :=
  funext fun a => Fin.ext (by match a with | ⟨0, _⟩ => rfl)
theorem l25 (e : Fin 800000) (q : Fin 64) (k : Fin 128) : lidx_main_v25 (ix2 e q) k = ix2 e k :=
  funext fun a => Fin.ext (by match a with | ⟨0, _⟩ => rfl | ⟨1, _⟩ => rfl)
theorem r25 (e : Fin 800000) (q : Fin 64) (k : Fin 128) : ridx_main_v25 (ix2 e q) k = ix2 k q :=
  funext fun a => Fin.ext (by match a with | ⟨0, _⟩ => rfl | ⟨1, _⟩ => rfl)
theorem b27 (e : Fin 800000) (q : Fin 64) : idx_main_v26 (idx_main_v27 (ix2 e q)) = ix1 q :=
  funext fun a => Fin.ext (by match a with | ⟨0, _⟩ => rfl)

theorem l38 (n : Fin 100000) (k : Fin 128) (l : Fin 128) : lidx_main_v38 (ix2 n k) l = ix2 n l :=
  funext fun a => Fin.ext (by match a with | ⟨0, _⟩ => rfl | ⟨1, _⟩ => rfl)
theorem r38 (n : Fin 100000) (k : Fin 128) (l : Fin 128) : ridx_main_v38 (ix2 n k) l = ix2 l k :=
  funext fun a => Fin.ext (by match a with | ⟨0, _⟩ => rfl | ⟨1, _⟩ => rfl)
theorem b40 (n : Fin 100000) (k : Fin 128) : idx_main_v39 (idx_main_v40 (ix2 n k)) = ix1 k :=
  funext fun a => Fin.ext (by match a with | ⟨0, _⟩ => rfl)
theorem l43 (n : Fin 100000) (q : Fin 64) (k : Fin 128) : lidx_main_v43 (ix2 n q) k = ix2 n k :=
  funext fun a => Fin.ext (by match a with | ⟨0, _⟩ => rfl | ⟨1, _⟩ => rfl)
theorem r43 (n : Fin 100000) (q : Fin 64) (k : Fin 128) : ridx_main_v43 (ix2 n q) k = ix2 k q :=
  funext fun a => Fin.ext (by match a with | ⟨0, _⟩ => rfl | ⟨1, _⟩ => rfl)
theorem b45 (n : Fin 100000) (q : Fin 64) : idx_main_v44 (idx_main_v45 (ix2 n q)) = ix1 q :=
  funext fun a => Fin.ext (by match a with | ⟨0, _⟩ => rfl)

/-! ## The message stage -/

section Msg
variable (x0 : (⟨S100000x64, .f32⟩ : BufTy).Contents (Elt Ideal)) (x1 : (⟨S2x800000, .i32⟩ : BufTy).Contents (Elt Ideal))
  (x2 : (⟨S800000x4, .f32⟩ : BufTy).Contents (Elt Ideal)) (x3 : (⟨S132x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- The joined input of the message perceptron, at row `e` and column `l`. -/
theorem joined_msg (e : Fin 800000) (l : Fin 132) :
    val_main_v19 (F := Ideal) x0 x1 x2 (ix2 e l)
      = row3 (val_main_v11 (F := Ideal) x0 x1) (val_main_v18 (F := Ideal) x0 x1) (lg x2) e l := by
  unfold val_main_v19
  exact cat3_apply (val_main_v11 (F := Ideal) x0 x1) (val_main_v18 (F := Ideal) x0 x1) (lg x2) _ e l

/-- The hidden layer after the rectifier, at `(e, k)`. -/
theorem hidden_msg (e : Fin 800000) (k : Fin 128) :
    val_main_v24 (F := Ideal) x0 x1 x2 x3 x4 (ix2 e k)
      = max (dense (row3 (val_main_v11 (F := Ideal) x0 x1) (val_main_v18 (F := Ideal) x0 x1) (lg x2) e) x3 x4 k) zero32 := by
  rw [val_main_v24_apply, val_main_v23_apply, val_main_v20_apply, val_main_v22_apply, val_main_v21_apply,
    val_main_call0_v0_apply, val_main_call0_cst_apply]
  simp only [l20, r20, b22, joined_msg]
  rfl

/-- The messages the reference computes are `Msg` of the gathered rows. -/
theorem msg_ref : val_main_v28 (F := Ideal) x0 x1 x2 x3 x4 x5 x6
    = Msg (val_main_v11 (F := Ideal) x0 x1) (val_main_v18 (F := Ideal) x0 x1) x2 x3 x4 x5 x6 := by
  funext i
  obtain ⟨e, q, rfl⟩ : ∃ (e : Fin 800000) (q : Fin 64), i = ix2 e q := ⟨i 0, i 1, eq_ix2 i⟩
  rw [Msg_apply, val_main_v28_apply, val_main_v25_apply, val_main_v27_apply, val_main_v26_apply]
  simp only [l25, r25, b27, hidden_msg]
  rfl

end Msg

/-! ## The update stage -/

section Upd
variable (x0 : (⟨S100000x64, .f32⟩ : BufTy).Contents (Elt Ideal)) (x1 : (⟨S2x800000, .i32⟩ : BufTy).Contents (Elt Ideal))
  (x2 : (⟨S800000x4, .f32⟩ : BufTy).Contents (Elt Ideal)) (x3 : (⟨S132x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S128x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal))

/-- The joined input of the update perceptron, at row `n` and column `l`. -/
theorem joined_upd (n : Fin 100000) (l : Fin 128) :
    val_main_v37 (F := Ideal) x0 x1 x2 x3 x4 x5 x6 (ix2 n l)
      = row2 x0 (val_main_v36 (F := Ideal) x0 x1 x2 x3 x4 x5 x6) n l := by
  unfold val_main_v37
  exact cat2_apply x0 (val_main_v36 (F := Ideal) x0 x1 x2 x3 x4 x5 x6) _ n l

/-- The hidden layer after the rectifier, at `(n, k)`. -/
theorem hidden_upd (n : Fin 100000) (k : Fin 128) :
    val_main_v42 (F := Ideal) x0 x1 x2 x3 x4 x5 x6 x7 x8 (ix2 n k)
      = max (dense (row2 x0 (val_main_v36 (F := Ideal) x0 x1 x2 x3 x4 x5 x6) n) x7 x8 k) zero32 := by
  rw [val_main_v42_apply, val_main_v41_apply, val_main_v38_apply, val_main_v40_apply, val_main_v39_apply,
    val_main_call1_v0_apply, val_main_call1_cst_apply]
  simp only [l38, r38, b40, joined_upd]
  rfl

/-- The reference's result is `Upd` of the node features and the aggregated messages. -/
theorem upd_ref : val_main_v46 (F := Ideal) x0 x1 x2 x3 x4 x5 x6 x7 x8 x9 x10
    = Upd x0 (val_main_v36 (F := Ideal) x0 x1 x2 x3 x4 x5 x6) x7 x8 x9 x10 := by
  funext i
  obtain ⟨n, q, rfl⟩ : ∃ (n : Fin 100000) (q : Fin 64), i = ix2 n q := ⟨i 0, i 1, eq_ix2 i⟩
  rw [Upd_apply, val_main_v46_apply, val_main_v43_apply, val_main_v45_apply, val_main_v44_apply]
  simp only [l43, r43, b45, hidden_upd]
  rfl

end Upd

end Cert.ReferenceIdeal.RefValue

end
-- ==== Proof.RefWhole.lean ====
/-
  The reference ends at the whole-step function: its messages are the message function of the gathered rows, its
  aggregated array the aggregation of those messages, its result the update function of the node features and that array.
-/
import proofs.«166490_j44160853737921_2_alg».proof.Proof.RefStages
import proofs.«166490_j44160853737921_2_alg».proof.Proof.Whole

noncomputable section

namespace Cert.ReferenceIdeal.RefValue

open Idealize.ShloMosaic Cert.Spec Cert.ReferenceIdeal Cert.ReferenceIdeal.Read

theorem ref_result (x0 : (⟨S100000x64, .f32⟩ : BufTy).Contents (Elt Ideal)) (x1 : (⟨S2x800000, .i32⟩ : BufTy).Contents (Elt Ideal))
    (x2 : (⟨S800000x4, .f32⟩ : BufTy).Contents (Elt Ideal)) (x3 : (⟨S132x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) :
    val_main_v46 (F := Ideal) x0 x1 x2 x3 x4 x5 x6 x7 x8 x9 x10 = Cert.Whole.result x0 x1 x2 x3 x4 x5 x6 x7 x8 x9 x10 := by
  rw [upd_ref, agg_ref, msg_ref]
  rfl

end Cert.ReferenceIdeal.RefValue

end
-- ==== Proof.lean ====
/-
  One message-passing step of a graph network, as a Pallas program against its jnp reference: over the extended reals
  the two compute the same updated node features.

  Both programs gather, for each of the 800000 edges, the feature rows of its source and target nodes; compute a
  message per edge as a two-layer perceptron of (source row, target row, log1p of the edge features); add every message
  into its target node's row; and update each of the 100000 nodes by a two-layer perceptron of (own row, aggregated
  row). The reference applies each layer to whole arrays. The kernel program computes the messages in 400 blocks of
  2000 edges and the updates in 20 blocks of 5000 nodes, narrowing the operands of every matrix product to bf16
  first; the gathers and the scatter-add are the same host operations in both. On the extended reals narrowing is
  the identity and a product into a zero accumulator is the exact sum, so each block is the matching rows of the
  whole-array function (a perceptron row depends on its own input rows only), and the blocks tile their arrays.
  No law that needs finite values is used: the two sides are the same expression entry by entry.

  The frames of the two kernel programs are the generated ones; the reference's frame is its run with the result
  dropped; the idealized kernel is the kernel's own text read over the extended reals (no operation of it was
  rewritten), so `preserves` is trivial.
-/
import proofs.«166490_j44160853737921_2_alg».proof.Defs
import proofs.«166490_j44160853737921_2_alg».proof.Proof.Gen.Kernel
import proofs.«166490_j44160853737921_2_alg».proof.Proof.Gen.Kernel.Frame
import proofs.«166490_j44160853737921_2_alg».proof.Proof.Gen.KernelIdeal
import proofs.«166490_j44160853737921_2_alg».proof.Proof.Gen.KernelIdeal.Frame
import proofs.«166490_j44160853737921_2_alg».proof.Proof.Gen.ReferenceIdeal
import proofs.«166490_j44160853737921_2_alg».proof.Proof.Gen.ReferenceIdeal.Run
import proofs.«166490_j44160853737921_2_alg».proof.Proof.Gen.ReferenceIdeal.Read
import proofs.«166490_j44160853737921_2_alg».proof.Proof.Gen.Pre_finite_inputs
import proofs.«166490_j44160853737921_2_alg».proof.Proof.KernelRun
import proofs.«166490_j44160853737921_2_alg».proof.Proof.KernelValue
import proofs.«166490_j44160853737921_2_alg».proof.Proof.RefWhole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the whole-step function of the (agreeing) arguments. -/
theorem algebraic : Cert.algebraic_KernelIdeal_ReferenceIdeal := by
  intro m ρ m' ρ' _ hagree
  refine ⟨fun c => Cert.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.out m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.ref_result,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
